-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S4x1x128 : Shape := ⟨3, ![4, 1, 128]⟩
abbrev S1024x1024 : Shape := ⟨2, ![1024, 1024]⟩
abbrev S1x1x128 : Shape := ⟨3, ![1, 1, 128]⟩
abbrev S1x1024 : Shape := ⟨2, ![1, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1x1x1 : Shape := ⟨3, ![1, 1, 1]⟩
abbrev S4x1x1 : Shape := ⟨3, ![4, 1, 1]⟩
abbrev S4 : Shape := ⟨1, ![4]⟩
abbrev S_ : Shape := ⟨0, ![]⟩
abbrev S4096 : Shape := ⟨1, ![4096]⟩

abbrev nBuf : Space → Nat
  | .hbm => 17
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x1x128, .f32⟩
  | .hbm, ⟨3, _⟩ => ⟨S4x1x1, .f32⟩
  | .hbm, ⟨4, _⟩ => ⟨S4, .f32⟩
  | .hbm, ⟨5, _⟩ => ⟨S_, .f32⟩
  | .hbm, ⟨6, _⟩ => ⟨S_, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1x128, .f32⟩
  | .local _ .vmem, ⟨5, _⟩ => ⟨S1x1x128, .f32⟩
  | .local _ .vmem, ⟨6, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x1024 : S1024x1.Broadcasts S1024x1024
  reduces_S1024x1024_S1024_2 : S1024x1024.Reduces [0] S1024
  shapeCasts_S1024_S1x1024 : S1024.ShapeCasts S1x1024
  reduces_S1x1024_S1 : S1x1024.Reduces [1] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S4x1x128_S4x1x1_0_0_0 : S4x1x128.Slices ![0, 0, 0] S4x1x1
  shapeCasts_S4x1x1_S4 : S4x1x1.ShapeCasts S4
  reducesTo_S4_S_d0 : S4.ReducesTo [0] S_
  h_S_ : 0 < S_.numel
  reducesTo_S4096x1024_S4096_d1 : S4096x1024.ReducesTo [1] S4096
  reducesTo_S4096_S_d0 : S4096.ReducesTo [0] S_
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S4x1x128.size a
  hwx0_2 : ∀ i : grid0.Coords, EltTy.bits .f32 = 32 ∨ (Rect.block (s := S4x1x128) S1x1x128.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x4096, .f32⟩
  | .hbm, ⟨9, _⟩ => ⟨S4096x1, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d0 : S4096x4096.ReducesTo [0] S4096
  reducesTo_S4096_S_d0 : S4096.ReducesTo [0] S_
  dot_S4096x1024_S4096x1024_S4096x4096_1_1_0_0_n_n_wf : DotDims.WF S4096x1024 S4096x1024 S4096x4096 [1] [1] [0] [0] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf

class Facts : Prop extends Facts₀ where

variable [Facts]
-- ==== Proof.ExtAlgebra.lean ====
/-
  Extended-real algebra behind the nearest-code loss.

  For data rows `n` and codes `m` (4096 each) write `zsq n`, `esq m` for the squared norms and `cr n m` for the
  inner product.  One side takes, per code, the least over all rows of `zsq n - 2·cr n m`, four row tiles of 1024 at
  a time folded from `⊤`, sums these least values tile of codes by tile of codes, divides by 4096 and adds the mean of
  `esq`.  The other takes the least over rows of `(zsq n + esq m) - 2·cr n m`, sums over codes and divides by 4096.
  They agree on the extended reals with no finiteness assumption:
    * a least value over a nonempty finite set is attained, and `· + c` is monotone, so `inf (a n + c) = inf a + c`;
    * `+` on the extended reals is commutative and associative, so sums split and re-tile freely;
    * multiplication by a nonnegative finite number distributes over `+`, so the division by 4096 splits.
-/
import Idealize.ShloMosaic.PureOps.Ideal
import Idealize.ShloMosaic.PureOps.Ideal.Laws

noncomputable section

namespace Cert.Dist

open Idealize.ShloMosaic

/-- The pattern of `4096.0` denotes the real 4096. -/
theorem ofBits_4096 : Ideal.ofBits .f32 0x45800000#32 = ((4096 : ℝ) : EReal) := by
  simp [Ideal.ofBits, Ideal.ieee, -EReal.coe_mul]; norm_num

/-- The pattern of `+inf` denotes `⊤`. -/
theorem ofBits_posInf : Ideal.ofBits .f32 0x7F800000#32 = (⊤ : EReal) := by
  simp [Ideal.ofBits, Ideal.ieee]

/-- Row (or code) `r` of tile `q` is row `1024·q + r` of the whole array. -/
def tile : Fin 4 × Fin 1024 ≃ Fin 4096 where
  toFun p := ⟨p.1.val * 1024 + p.2.val, by have := p.1.isLt; have := p.2.isLt; omega⟩
  invFun n := (⟨n.val / 1024, by have := n.isLt; omega⟩, ⟨n.val % 1024, by omega⟩)
  left_inv p := by
    obtain ⟨⟨q, hq⟩, ⟨r, hr⟩⟩ := p
    simp only [Prod.mk.injEq, Fin.mk.injEq]
    constructor <;> omega
  right_inv n := by
    obtain ⟨n, hn⟩ := n
    simp only [Fin.mk.injEq]
    omega

theorem tile_val (q : Fin 4) (r : Fin 1024) : (tile (q, r)).val = q.val * 1024 + r.val := rfl

/-- A fold of `min` from `⊤` is the infimum. -/
theorem fold_min_top_eq_inf {ι : Type*} (s : Finset ι) (f : ι → EReal) : s.fold min ⊤ f = s.inf f := by
  classical
  induction s using Finset.induction_on with
  | empty => rfl
  | insert a s ha ih => rw [Finset.fold_insert ha, Finset.inf_insert, ih]

/-- Adding a constant commutes with a least value over a nonempty finite set. -/
theorem inf_add_const {ι : Type*} (s : Finset ι) (hs : s.Nonempty) (a : ι → EReal) (c : EReal) :
    s.inf (fun n => a n + c) = s.inf a + c := by
  apply le_antisymm
  · obtain ⟨n0, hn0, h⟩ := Finset.exists_mem_eq_inf s hs a
    rw [h]; exact Finset.inf_le hn0
  · exact Finset.le_inf fun n hn => add_le_add (Finset.inf_le hn) le_rfl

/-- Four tiles' least values folded from `⊤` give the least value over all 4096 rows. -/
theorem tiles_min (f : Fin 4 → Fin 1024 → EReal) :
    min (min (min (min ⊤ (Finset.univ.inf (f 0))) (Finset.univ.inf (f 1))) (Finset.univ.inf (f 2))) (Finset.univ.inf (f 3))
      = Finset.univ.inf (fun n : Fin 4096 => f (tile.symm n).1 (tile.symm n).2) := by
  refine eq_of_forall_le_iff fun a => ?_
  simp only [le_min_iff, Finset.le_inf_iff, Finset.mem_univ, forall_true_left, le_top, true_and]
  constructor
  · rintro ⟨⟨⟨h0, h1⟩, h2⟩, h3⟩ n
    generalize tile.symm n = p
    obtain ⟨q, r⟩ := p
    fin_cases q
    · exact h0 r
    · exact h1 r
    · exact h2 r
    · exact h3 r
  · intro h
    refine ⟨⟨⟨fun r => ?_, fun r => ?_⟩, fun r => ?_⟩, fun r => ?_⟩
    · simpa using h (tile (0, r))
    · simpa using h (tile (1, r))
    · simpa using h (tile (2, r))
    · simpa using h (tile (3, r))

/-- The kernel's arrangement: per tile of codes, per code, the four row tiles' least values folded from `⊤`;
    summed, this is the sum over all codes of the least value over all rows. -/
theorem sum_tiles_min (A : Fin 4096 → Fin 4096 → EReal) :
    ∑ q : Fin 4, ∑ c : Fin 1024,
        min (min (min (min ⊤ (Finset.univ.inf fun r => A (tile (0, r)) (tile (q, c))))
          (Finset.univ.inf fun r => A (tile (1, r)) (tile (q, c))))
          (Finset.univ.inf fun r => A (tile (2, r)) (tile (q, c))))
          (Finset.univ.inf fun r => A (tile (3, r)) (tile (q, c)))
      = ∑ m : Fin 4096, Finset.univ.inf fun n => A n m := by
  rw [← Equiv.sum_comp tile, Fintype.sum_prod_type]
  refine Finset.sum_congr rfl fun q _ => Finset.sum_congr rfl fun c _ => ?_
  rw [tiles_min fun q' r => A (tile (q', r)) (tile (q, c))]
  simp only [Prod.mk.eta, Equiv.apply_symm_apply]

/-- Division by 4096 splits over a sum of extended reals. -/
theorem div_add (X Y : EReal) :
    Ideal.div (X + Y) (Ideal.ofBits .f32 0x45800000#32)
      = Ideal.div X (Ideal.ofBits .f32 0x45800000#32) + Ideal.div Y (Ideal.ofBits .f32 0x45800000#32) := by
  rw [ofBits_4096, Ideal.div_coe (by norm_num), Ideal.div_coe (by norm_num), Ideal.div_coe (by norm_num)]
  exact EReal.right_distrib_of_nonneg_of_ne_top (EReal.coe_nonneg.mpr (by norm_num)) (EReal.coe_ne_top _) X Y

/-- THE LAW joining the two programs.  With `a n m = zsq n - two·cr n m`:
    the mean over codes of the least over rows of `(zsq n + esq m) - two·cr n m` is the mean of the least of `a`
    plus the mean of `esq`. -/
theorem mean_min_split (zsq esq : Fin 4096 → EReal) (cr : Fin 4096 → Fin 4096 → EReal) (two : EReal) :
    Ideal.div (∑ m : Fin 4096, Finset.univ.inf fun n : Fin 4096 => (zsq n + esq m) - two * cr n m) (Ideal.ofBits .f32 0x45800000#32)
      = Ideal.div (∑ m : Fin 4096, Finset.univ.inf fun n : Fin 4096 => zsq n - two * cr n m) (Ideal.ofBits .f32 0x45800000#32)
        + Ideal.div (∑ m : Fin 4096, esq m) (Ideal.ofBits .f32 0x45800000#32) := by
  rw [← div_add, ← Finset.sum_add_distrib]
  refine congrArg (fun s => Ideal.div s _) (Finset.sum_congr rfl fun m _ => ?_)
  rw [← inf_add_const _ Finset.univ_nonempty]
  refine congrArg (Finset.inf Finset.univ) (funext fun n => ?_)
  simp only [sub_eq_add_neg]
  exact add_right_comm _ _ _

end Cert.Dist

end
-- ==== Proof.Spec.lean ====
/-
  The loss both programs compute, as one function of the two argument arrays `z` (data rows) and `e` (codes), both
  4096 × 1024, over the extended reals:

      loss z e = ( ∑ₘ  minₙ ( (‖zₙ‖² + ‖eₘ‖²) − 2·⟨zₙ, eₘ⟩ ) ) / 4096

  with the minimum over all 4096 rows taken as an infimum (a fold of `min` from `⊤`), `‖x‖² = ∑_d x_d·x_d` and
  `⟨x, y⟩ = ∑_d x_d·y_d` over the 1024 features.
-/
import proofs.«167974_j88441966559691_2_alg».proof.Proof.ExtAlgebra
import Idealize.ShloMosaic.Lib.ValueIdx

noncomputable section

namespace Cert.Dist

open Idealize.ShloMosaic Idealize.ShloMosaic.ValueIdx

/-- A 4096 × 1024 array of extended reals. -/
abbrev Arr := (⟨2, ![4096, 1024]⟩ : Shape).Idx → EReal

/-- The squared norm of row `n`. -/
def sqn (x : Arr) (n : Fin 4096) : EReal := ∑ d : Fin 1024, x (ix2 n d) * x (ix2 n d)

/-- The inner product of row `n` of `z` with row `m` of `e`. -/
def dotp (z e : Arr) (n m : Fin 4096) : EReal := ∑ d : Fin 1024, z (ix2 n d) * e (ix2 m d)

/-- The literal `2.0` both programs multiply the inner product by. -/
def two : EReal := Ideal.ofBits .f32 0x40000000#32

/-- The mean over codes of the squared distance to the nearest data row, in the expanded form. -/
def loss (z e : Arr) : EReal :=
  Ideal.div (∑ m : Fin 4096, Finset.univ.inf fun n : Fin 4096 => (sqn z n + sqn e m) - two * dotp z e n m)
    (Ideal.ofBits .f32 0x45800000#32)

/-- The same with the code's own squared norm taken out of the minimum and averaged separately. -/
theorem loss_split (z e : Arr) :
    loss z e = Ideal.div (∑ m : Fin 4096, Finset.univ.inf fun n : Fin 4096 => sqn z n - two * dotp z e n m) (Ideal.ofBits .f32 0x45800000#32)
      + Ideal.div (∑ m : Fin 4096, sqn e m) (Ideal.ofBits .f32 0x45800000#32) :=
  mean_min_split (sqn z) (sqn e) (dotp z e) two

/-- A sum over the indices of a vector is the sum over its one coordinate. -/
theorem sum_ix1 {M : Type*} [AddCommMonoid M] {n : Nat} (f : (⟨1, ![n]⟩ : Shape).Idx → M) :
    ∑ j, f j = ∑ a : Fin n, f (ix1 a) :=
  Fintype.sum_equiv ⟨fun j => j 0, ix1, fun j => (eq_ix1 j).symm, fun _ => rfl⟩ f (fun a => f (ix1 a))
    (fun j => congrArg f (eq_ix1 j))

end Cert.Dist

end
-- ==== Proof.RefStages.lean ====
/-
  The reference program read stage by stage: its scalar result is `Dist.loss` of the two argument arrays.
  Entry (n, m) of the distance matrix is `(‖zₙ‖² + ‖eₘ‖²) − 2·⟨zₙ, eₘ⟩`; the column minimum from `+inf` is the
  infimum over the rows; the sum from `0` over the 4096 codes divided by 4096 is the mean.
-/
import proofs.«167974_j88441966559691_2_alg».proof.Defs
import proofs.«167974_j88441966559691_2_alg».proof.Proof.Gen.ReferenceIdeal.Read
import proofs.«167974_j88441966559691_2_alg».proof.Proof.Spec
import Idealize.ShloMosaic.PureOps.Reduce

noncomputable section

namespace Cert.ReferenceIdeal.Stages

open Cert.ReferenceIdeal Cert.ReferenceIdeal.Gen Cert.ReferenceIdeal.Read Cert.Dist
open Idealize.ShloMosaic Idealize.ShloMosaic.ValueIdx

/-- Entry (n, m) of the distance matrix. -/
theorem dist_apply (z e : Arr) (n m : Fin 4096) :
    val_main_v12 (F := Ideal) z e (ix2 n m) = (sqn z n + sqn e m) - two * dotp z e n m := by
  have e1 : ∀ k, idx_main_v1 (idx_main_v5 (idx_main_v7 (ix2 n m))) k = ix2 n k := fun k =>
    funext fun a => Fin.ext (by match a with | ⟨0, _⟩ => rfl | ⟨1, _⟩ => rfl)
  have e3 : ∀ k, idx_main_v3 (idx_main_v6 (idx_main_v8 (ix2 n m))) k = ix2 m k := fun k =>
    funext fun a => Fin.ext (by match a with | ⟨0, _⟩ => rfl | ⟨1, _⟩ => rfl)
  have el : ∀ k, lidx_main_v4 (ix2 n m) k = ix2 n k := fun k =>
    funext fun a => Fin.ext (by match a with | ⟨0, _⟩ => rfl | ⟨1, _⟩ => rfl)
  have er : ∀ k, ridx_main_v4 (ix2 n m) k = ix2 m k := fun k =>
    funext fun a => Fin.ext (by match a with | ⟨0, _⟩ => rfl | ⟨1, _⟩ => rfl)
  rw [val_main_v12_apply, val_main_v9_apply, val_main_v7_apply, val_main_v5_apply, val_main_v1_apply,
    val_main_v8_apply, val_main_v6_apply, val_main_v3_apply, val_main_v11_apply, val_main_v10_apply,
    val_main_v4_apply]
  simp only [val_main_v0_apply, val_main_v2_apply, val_main_cst_apply, val_main_cst_0_apply, val_main_cst_1_apply,
    Ideal.mulf_def, Ideal.addf_def, Ideal.subf_def, Ideal.ofBits_def, Ideal.ofBits_zero_f32, zero_add, e1, e3, el, er]
  rfl

/-- Column `m`'s minimum from `+inf` is the infimum over the rows. -/
theorem colmin_apply (z e : Arr) (m : Fin 4096) :
    val_main_v13 (F := Ideal) z e (ix1 m) = Finset.univ.inf fun n : Fin 4096 => (sqn z n + sqn e m) - two * dotp z e n m := by
  have h : S4096x4096.Reduces [0] S4096 := by decide
  unfold val_main_v13
  rw [Host.reduce_eq_fold_single FloatOps.minimumf _ _ reducesTo_S4096x4096_S4096_d0 h h_S_]
  have hf : (val_main_v12 (F := Ideal) z e ∘ h.lift (ix1 m)) = fun n : Fin 4096 => (sqn z n + sqn e m) - two * dotp z e n m :=
    funext fun n => by
      show val_main_v12 (F := Ideal) z e (h.lift (ix1 m) n) = _
      rw [show h.lift (ix1 m) n = ix2 n m from funext fun c => Fin.ext (by fin_cases c <;> rfl)]
      exact dist_apply z e n m
  rw [hf]
  show Finset.fold min (Ideal.ofBits .f32 0x7F800000#32) _ (Finset.univ : Finset (Fin 4096)) = _
  rw [ofBits_posInf, fold_min_top_eq_inf]

/-- The reference's result. -/
theorem result_eq (z e : Arr) : val_main_v15 (F := Ideal) z e = fun _ => loss z e := by
  funext i
  rw [val_main_v15_apply, val_main_v14_apply, sum_ix1]
  simp only [val_main_cst_3_apply, val_main_cst_4_apply, Ideal.hostDivf_def, Ideal.ofBits_def, Ideal.ofBits_zero_f32, zero_add,
    colmin_apply]
  rfl

end Cert.ReferenceIdeal.Stages

end
-- ==== Proof.Pieces.lean ====
/-
  What each store of the body leaves, per control case, as a value of the blocks the body loads.

  The body has three cases by the data-tile coordinate `q` of the grid point.  At `q = 0` it first fills the carried row
  with `+inf`, then lowers it; at `q = 1, 2` it lowers the row the point before left; at `q = 3` it does the same and
  then also stores, into the output block, the lane sum of the row it has just stored.  Each store covers its whole
  buffer, so what the buffer ends holding is the stored value itself, the loads reading whole buffers: the carried row
  ends at `lower x0 x1 (+inf)` or `lower x0 x1 prev`, and the output block at `lanesum (lower x0 x1 prev)`, where
  `lower` and `lanesum` are the body's two arithmetic terms.  The second half restates this at a grid point, over
  the running contents after the point before.
-/
import proofs.«167974_j88441966559691_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Carry

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At `q = 1, 2` the carried row ends at the lowering of what it held. -/
theorem scratch_B (c : Dev nD) (i : grid0.Coords) (a2 : Memref sig .tc .vmem S1024x1024 .f32) (h2 : a2.IsWhole)
    (a3 : Memref sig .tc .vmem S1024x1024 .f32) (h3 : a3.IsWhole) (a4 : Memref sig .tc .vmem S1x1x128 .f32) (h4 : a4.IsWhole)
    (a5 : Memref sig .tc .vmem S1x1024 .f32) (h5 : a5.IsWhole) (hc0 : ¬cond0_0 i) (hc1 : ¬cond0_1 i)
    (x0 x1 : Vec F S1024x1024 .f32) (xs0 : Vec F S1x1024 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz2]
  simp only [View.readAt_eq_ld, h2.read_unread, h3.read_unread, h5.read_unread,
    View.ld_unit_zero (S := S1024x1024) hz2, View.ld_unit_zero (S := S1x1024) hz2]

/-- At `q = 0` the carried row ends at the lowering of the `+inf` row just stored. -/
theorem scratch_A (c : Dev nD) (i : grid0.Coords) (a2 : Memref sig .tc .vmem S1024x1024 .f32) (h2 : a2.IsWhole)
    (a3 : Memref sig .tc .vmem S1024x1024 .f32) (h3 : a3.IsWhole) (a4 : Memref sig .tc .vmem S1x1x128 .f32) (h4 : a4.IsWhole)
    (a5 : Memref sig .tc .vmem S1x1024 .f32) (h5 : a5.IsWhole) (hc0 : cond0_0 i) (hc1 : ¬cond0_1 i)
    (x0 x1 : Vec F S1024x1024 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1024) hz2, View.readCov_unit_zero (S := S1x1024) _ hz2]
  simp only [View.readAt_eq_ld, h2.read_unread, h3.read_unread,
    View.ld_unit_zero (S := S1024x1024) hz2]

/-- At `q = 3` the carried row ends at the lowering of what it held. -/
theorem scratch_C (c : Dev nD) (i : grid0.Coords) (a2 : Memref sig .tc .vmem S1024x1024 .f32) (h2 : a2.IsWhole)
    (a3 : Memref sig .tc .vmem S1024x1024 .f32) (h3 : a3.IsWhole) (a4 : Memref sig .tc .vmem S1x1x128 .f32) (h4 : a4.IsWhole)
    (a5 : Memref sig .tc .vmem S1x1024 .f32) (h5 : a5.IsWhole) (hc0 : ¬cond0_0 i) (hc1 : cond0_1 i)
    (x0 x1 : Vec F S1024x1024 .f32) (xs0 : Vec F S1x1024 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero (S := S1x1024) hz2]
  simp only [View.readAt_eq_ld, h2.read_unread, h3.read_unread, h5.read_unread,
    View.ld_unit_zero (S := S1024x1024) hz2, View.ld_unit_zero (S := S1x1024) hz2]

/-- At `q = 3` the output block ends at the lane sum of the carried row just stored. -/
theorem out_C (c : Dev nD) (i : grid0.Coords) (a2 : Memref sig .tc .vmem S1024x1024 .f32) (h2 : a2.IsWhole)
    (a3 : Memref sig .tc .vmem S1024x1024 .f32) (h3 : a3.IsWhole) (a4 : Memref sig .tc .vmem S1x1x128 .f32) (h4 : a4.IsWhole)
    (a5 : Memref sig .tc .vmem S1x1024 .f32) (h5 : a5.IsWhole) (hc0 : ¬cond0_0 i) (hc1 : cond0_1 i)
    (x0 x1 : Vec F S1024x1024 .f32) (xs0 : Vec F S1x1024 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero (S := S1x1x128) hz3, View.readCov_unit_zero (S := S1x1024) _ hz2]
  simp only [View.readAt_eq_ld, h2.read_unread, h3.read_unread, h5.read_unread,
    View.ld_unit_zero (S := S1024x1024) hz2, View.ld_unit_zero (S := S1x1024) hz2]

/-! ## The same at a grid point: what the carried row and the output block hold after point `t` -/

variable (m : (ℓ : Loc nD τ sig) → Buf (Elt F) ℓ)

/-- The components of a pair known by an equation. -/
theorem fst_of_eq_pair {α β : Type} {p : α × β} {a : α} {b : β} (h : p = (a, b)) : p.1 = a := by subst h; rfl
theorem snd_of_eq_pair {α β : Type} {p : α × β} {a : α} {b : β} (h : p = (a, b)) : p.2 = b := by subst h; rfl

theorem scr_reset (c : Dev nD) (t : Fin cfg0.N) (h0 : t.val % 4 = 0) (h1 : ¬t.val % 4 = 3) :
    (outsAt0 m c t.val t.isLt).2 = k0_pay2 (iblk m c 0 t) (iblk m c 1 t) (k0_pay1 (F := F)) :=
  (snd_of_eq_pair (outsAt0_A m c t h0 h1)).trans
    (scratch_A (F := F) c (grid0.coords t) (ms0_0 t) (hs0_0 t) (ms0_1 t) (hs0_1 t) (ms0_2 t) (hs0_2 t) scM0_0 (Memref.isWhole_whole _)
      ((hcond0_0 t).mpr h0) (fun h => h1 ((hcond0_1 t).mp h)) (iblk m c 0 t) (iblk m c 1 t))

theorem scr_step_B (c : Dev nD) (t : Fin cfg0.N) (h0 : ¬t.val % 4 = 0) (h1 : ¬t.val % 4 = 3) :
    (outsAt0 m c t.val t.isLt).2 = k0_pay2 (iblk m c 0 t) (iblk m c 1 t)
      (outsAt0 m c (t.val - 1) (Nat.lt_of_le_of_lt (Nat.sub_le _ _) t.isLt)).2 :=
  (snd_of_eq_pair (outsAt0_B m c t h0 h1)).trans
    (scratch_B (F := F) c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2)

theorem scr_step_C (c : Dev nD) (t : Fin cfg0.N) (h0 : ¬t.val % 4 = 0) (h1 : t.val % 4 = 3) :
    (outsAt0 m c t.val t.isLt).2 = k0_pay2 (iblk m c 0 t) (iblk m c 1 t)
      (outsAt0 m c (t.val - 1) (Nat.lt_of_le_of_lt (Nat.sub_le _ _) t.isLt)).2 :=
  (snd_of_eq_pair (outsAt0_C m c t h0 h1)).trans
    (scratch_C (F := F) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2)

theorem out_last_C (c : Dev nD) (t : Fin cfg0.N) (h0 : ¬t.val % 4 = 0) (h1 : t.val % 4 = 3) :
    (outsAt0 m c t.val t.isLt).1 = k0_pay3 (k0_pay2 (iblk m c 0 t) (iblk m c 1 t)
      (outsAt0 m c (t.val - 1) (Nat.lt_of_le_of_lt (Nat.sub_le _ _) t.isLt)).2) :=
  (fst_of_eq_pair (outsAt0_C m c t h0 h1)).trans
    (out_C (F := F) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2)

end Cert.KernelIdeal.Carry

end
-- ==== Proof.Payload.lean ====
/-
  The body's arithmetic read at an index, over the extended reals.

  For one grid point the body sees a tile `x0` of 1024 data rows and a tile `x1` of 1024 codes.  Entry (r, c) of its
  distance tile is `‖x0ᵣ‖² − 2·⟨x0ᵣ, x1_c⟩` (the code's own norm is left out); the column minimum from `+inf` is the
  infimum over the tile's rows; the carried row keeps, per code, the minimum of what it held and this tile's value.
  At the last tile of a sweep the 1024 carried minima are summed and the sum fills the 128 lanes of the output block.
-/
import proofs.«167974_j88441966559691_2_alg».proof.Proof.Gen.KernelIdeal.Skeleton
import proofs.«167974_j88441966559691_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.KernelIdeal.Payload

open Cert.KernelIdeal Cert.KernelIdeal.Gen Cert.Dist
open Idealize.ShloMosaic Idealize.ShloMosaic.ValueIdx

/-! ## Two keepdims layout steps read at an index -/

/-- A vector of `a` entries cast to one column reads, at (i, u), entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over `b` columns reads, at (p, c), the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The distance tile -/

variable (x0 x1 : FVec Ideal S1024x1024 .f32)

/-- The squared norms of the data tile's rows. -/
def rowSq : FVec Ideal S1024 .f32 :=
  multiReduction (F := Ideal) .add [1] S1024 (mulf x0 x0) 0x00000000#32 reduces_S1024x1024_S1024 (.inl rfl) rfl

theorem rowSq_apply (r : Fin 1024) : rowSq x0 (ix1 r) = ∑ d : Fin 1024, x0 (ix2 r d) * x0 (ix2 r d) := by
  refine (Ideal.multiReduction_add_single (mulf x0 x0) 0x00000000#32 reduces_S1024x1024_S1024 (.inl rfl) rfl (ix1 r)).trans ?_
  refine Finset.sum_congr rfl fun d _ => ?_
  exact congrArg (mulf x0 x0) (funext fun c => Fin.ext (by fin_cases c <;> rfl))

/-- The inner products of the data tile's rows with the code tile's rows. -/
def cross : FVec Ideal S1024x1024 .f32 :=
  matmul (F := Ideal) dot_S1024x1024_S1024x1024_S1024x1024_1_1_0_0_n_n none (truncf .bf16 x0 bitsLt_bf16_f32)
    (truncf .bf16 x1 bitsLt_bf16_f32) (constant S1024x1024 .f32 0x00000000#32)

theorem lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem lhs_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem rhs_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

theorem cross_apply (r c : Fin 1024) : cross x0 x1 (ix2 r c) = ∑ d : Fin 1024, x0 (ix2 r d) * x1 (ix2 c d) := by
  refine (Ideal.matmul_constant_zero_apply dot_S1024x1024_S1024x1024_S1024x1024_1_1_0_0_n_n none
    (truncf .bf16 x0 bitsLt_bf16_f32) (truncf .bf16 x1 bitsLt_bf16_f32) (ix2 r c)).trans ?_
  rw [← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 r c)
      ((ValueIdx.contrEquiv1 dot_S1024x1024_S1024x1024_S1024x1024_1_1_0_0_n_n 1024 rfl rfl).symm k) = ix2 r k :=
    funext fun a => Fin.ext (by
      match a with
      | ⟨0, _⟩ => exact lhs_0 _ _
      | ⟨1, _⟩ => exact (lhs_1 _ _).trans hk)
  have er : dot_S1024x1024_S1024x1024_S1024x1024_1_1_0_0_n_n.rhsIdx (ix2 r c)
      ((ValueIdx.contrEquiv1 dot_S1024x1024_S1024x1024_S1024x1024_1_1_0_0_n_n 1024 rfl rfl).symm k) = ix2 c k :=
    funext fun a => Fin.ext (by
      match a with
      | ⟨0, _⟩ => exact rhs_0 _ _
      | ⟨1, _⟩ => exact (rhs_1 _ _).trans hk)
  rw [el, er]
  rfl

/-- The distance tile without the codes' norms: `‖x0ᵣ‖² − 2·⟨x0ᵣ, x1_c⟩` at (r, c). -/
def distTile : FVec Ideal S1024x1024 .f32 :=
  subf (broadcastTo S1024x1024 (shapeCast S1024x1 (rowSq x0) shapeCasts_S1024_S1024x1) broadcasts_S1024x1_S1024x1024)
    (mulf (broadcast S1024x1024 (Scalar.ofBits (F := Ideal) .f32 0x40000000#32)) (cross x0 x1))

theorem distTile_apply (r c : Fin 1024) :
    distTile x0 x1 (ix2 r c)
      = (∑ d : Fin 1024, x0 (ix2 r d) * x0 (ix2 r d)) - two * ∑ d : Fin 1024, x0 (ix2 r d) * x1 (ix2 c d) := by
  have h1 : broadcastTo S1024x1024 (shapeCast S1024x1 (rowSq x0) shapeCasts_S1024_S1024x1) broadcasts_S1024x1_S1024x1024 (ix2 r c)
      = ∑ d : Fin 1024, x0 (ix2 r d) * x0 (ix2 r d) :=
    (broadcastTo_a1_ab_apply _ broadcasts_S1024x1_S1024x1024 r c).trans
      ((shapeCast_a_a1_apply (rowSq x0) shapeCasts_S1024_S1024x1 r 0).trans (rowSq_apply x0 r))
  show _ - (Ideal.ofBits .f32 0x40000000#32) * cross x0 x1 (ix2 r c) = _
  rw [cross_apply]
  exact congrArg (· - two * ∑ d : Fin 1024, x0 (ix2 r d) * x1 (ix2 c d)) h1

/-- Per code, the least entry of its column of the distance tile, from `+inf`. -/
def tileMin : FVec Ideal S1024 .f32 :=
  multiReduction (F := Ideal) .minimumf [0] S1024 (distTile x0 x1) 0x7F800000#32 reduces_S1024x1024_S1024_2 (.inl rfl) rfl

theorem tileMin_apply (c : Fin 1024) :
    tileMin x0 x1 (ix1 c) = Finset.univ.inf fun r : Fin 1024 =>
      (∑ d : Fin 1024, x0 (ix2 r d) * x0 (ix2 r d)) - two * ∑ d : Fin 1024, x0 (ix2 r d) * x1 (ix2 c d) := by
  refine (multiReduction_minimumf_eq_fold (distTile x0 x1) 0x7F800000#32 reduces_S1024x1024_S1024_2 (.inl rfl) rfl (ix1 c)).trans ?_
  refine (reduces_S1024x1024_S1024_2.fold_filter_drop_single _ _ (distTile x0 x1) (ix1 c)).trans ?_
  have hf : (distTile x0 x1 ∘ reduces_S1024x1024_S1024_2.lift (ix1 c)) = fun r : Fin 1024 =>
      (∑ d : Fin 1024, x0 (ix2 r d) * x0 (ix2 r d)) - two * ∑ d : Fin 1024, x0 (ix2 r d) * x1 (ix2 c d) :=
    funext fun r => by
      show distTile x0 x1 (reduces_S1024x1024_S1024_2.lift (ix1 c) r) = _
      rw [show reduces_S1024x1024_S1024_2.lift (ix1 c) r = ix2 r c from funext fun a => Fin.ext (by fin_cases a <;> rfl)]
      exact distTile_apply x0 x1 r c
  rw [hf]
  show Finset.fold min (Ideal.ofBits .f32 0x7F800000#32) _ (Finset.univ : Finset (Fin 1024)) = _
  rw [ofBits_posInf, fold_min_top_eq_inf]

/-! ## The two stored values -/

/-- The value stored into the carried row is, per code, the minimum of what the row held and this tile's value. -/
theorem carry_eq (acc : FVec Ideal S1x1024 .f32) :
    k0_pay2 (F := Ideal) x0 x1 acc
      = shapeCast S1x1024 (minimumf acc (shapeCast S1x1024 (tileMin x0 x1) shapeCasts_S1024_S1x1024)) shapeCasts_S1x1024_S1x1024 := rfl

theorem carry_apply (acc : FVec Ideal S1x1024 .f32) (c : Fin 1024) :
    k0_pay2 (F := Ideal) x0 x1 acc (ix2 (0 : Fin 1) c)
      = min (acc (ix2 (0 : Fin 1) c)) (Finset.univ.inf fun r : Fin 1024 =>
          (∑ d : Fin 1024, x0 (ix2 r d) * x0 (ix2 r d)) - two * ∑ d : Fin 1024, x0 (ix2 r d) * x1 (ix2 c d)) := by
  rw [carry_eq, shapeCast_self]
  show min (acc (ix2 (0 : Fin 1) c)) (shapeCast S1x1024 (tileMin x0 x1) shapeCasts_S1024_S1x1024 (ix2 (0 : Fin 1) c)) = _
  rw [shapeCast_a_1a_apply (tileMin x0 x1) shapeCasts_S1024_S1x1024 0 c, tileMin_apply]

/-- The first tile of a sweep starts from `+inf` everywhere. -/
theorem reset_apply (j : S1x1024.Idx) : k0_pay1 (F := Ideal) j = ⊤ := by
  unfold k0_pay1
  rw [shapeCast_self]
  exact ofBits_posInf

/-- The output block: every lane holds the sum of the 1024 carried minima. -/
theorem out_apply (v : FVec Ideal S1x1024 .f32) (l : Fin 128) :
    k0_pay3 (F := Ideal) v (ix3 (0 : Fin 1) (0 : Fin 1) l) = ∑ c : Fin 1024, v (ix2 (0 : Fin 1) c) := by
  have hsum : multiReduction (F := Ideal) .add [1] S1 v 0x00000000#32 reduces_S1x1024_S1 (.inl rfl) rfl (ix1 (0 : Fin 1))
      = ∑ c : Fin 1024, v (ix2 (0 : Fin 1) c) := by
    refine (Ideal.multiReduction_add_single v 0x00000000#32 reduces_S1x1024_S1 (.inl rfl) rfl (ix1 (0 : Fin 1))).trans ?_
    refine Finset.sum_congr rfl fun d _ => ?_
    exact congrArg v (funext fun a => Fin.ext (by fin_cases a <;> rfl))
  unfold k0_pay3
  rw [shapeCast_self]
  refine (broadcastTo_apply _ broadcasts_S1x1x1_S1x1x128 _ (ix3 (0 : Fin 1) (0 : Fin 1) (0 : Fin 1)) fun ax => ?_).trans ?_
  · match ax with
    | ⟨0, _⟩ => rfl
    | ⟨1, _⟩ => rfl
    | ⟨2, _⟩ => rfl
  refine (shapeCast_apply _ shapeCasts_S1x1_S1x1x1 _ (ix2 (0 : Fin 1) (0 : Fin 1)) ?_).trans ?_
  · rw [Shape.rowMajor_val_two, Shape.rowMajor_val_three]; rfl
  refine (shapeCast_apply _ shapeCasts_S1_S1x1 _ (ix1 (0 : Fin 1)) ?_).trans hsum
  rw [Shape.rowMajor_val_one, Shape.rowMajor_val_two]; rfl

end Cert.KernelIdeal.Payload

end
-- ==== Proof.Sweep.lean ====
/-
  The carried row across a sweep, read as values.

  The grid is 4 × 4: point `t` works on code tile `p = t / 4` and data tile `q = t % 4`, the data tile moving fastest.
  At `q = 0` the carried row is reset to `+inf`; at every point it is lowered, per code, to the least distance-entry
  of the point's tile.  So after the last point of a sweep (`q = 3`) the row holds, per code of tile `p`,
  `min (min (min (min ⊤ T₀) T₁) T₂) T₃` with `T_q` the least entry over data tile `q`; and that point's output
  block holds, in every lane, the sum of these 1024 values.
-/
import proofs.«167974_j88441966559691_2_alg».proof.Proof.Pieces
import proofs.«167974_j88441966559691_2_alg».proof.Proof.Payload

noncomputable section

namespace Cert.KernelIdeal.Sweep

open Cert.KernelIdeal Cert.KernelIdeal.Gen Cert.KernelIdeal.Carry Cert.KernelIdeal.Payload Cert.Dist
open Idealize.ShloMosaic Idealize.ShloMosaic.TcCoe Idealize.SL.Sem Idealize.ShloMosaic.ValueIdx

variable (m : (ℓ : Loc nD τ sig) → Buf (Elt Ideal) ℓ)

/-- The data array and the code array as the region finds them. -/
def zA (c : Dev nD) : Arr := m ((c : Thread nD τ).loc main_arg0)
def eA (c : Dev nD) : Arr := m ((c : Thread nD τ).loc main_arg1)

/-- The data tile and the code tile of grid point `n`. -/
def qOf (n : ℕ) : Fin 4 := ⟨n % 4, Nat.mod_lt _ (by decide)⟩
def pOf (n : ℕ) : Fin 4 := ⟨(n / 4) % 4, Nat.mod_lt _ (by decide)⟩

/-- The printed index maps, decided over the grid. -/
theorem idx_facts : ∀ t : Fin cfg0.N, win0_0.index t (0 : Fin 2) = t.val % 4 ∧ win0_0.index t (1 : Fin 2) = 0
    ∧ win0_1.index t (0 : Fin 2) = t.val / 4 ∧ win0_1.index t (1 : Fin 2) = 0
    ∧ win0_2.index t (0 : Fin 3) = t.val / 4 ∧ win0_2.index t (1 : Fin 3) = 0 ∧ win0_2.index t (2 : Fin 3) = 0 :=
  (by decide +kernel : ∀ t : Fin grid0.N, _)

/-- Row `r` of the data block at point `t` is row `r` of data tile `t % 4`. -/
theorem zblk_apply (c : Dev nD) (t : Fin cfg0.N) (r d : Fin 1024) :
    (iblk m c 0 t : Vec Ideal S1024x1024 .f32) (ix2 r d) = zA m c (ix2 (tile (qOf t.val, r)) d) := by
  have hN : t.val < 16 := lt_of_lt_of_eq t.isLt (show cfg0.N = 16 from N_0)
  obtain ⟨e0, e1, -⟩ := idx_facts t
  unfold iblk zA
  rw [View.read_apply]
  show m ((c : Thread nD τ).loc main_arg0) _ = m ((c : Thread nD τ).loc main_arg0) _
  congr 1
  funext a
  apply Fin.ext
  match a with
  | ⟨0, _⟩ => show win0_0.index t (0 : Fin 2) * 1024 + 1 * r.val = (t.val % 4) * 1024 + r.val; rw [e0]; omega
  | ⟨1, _⟩ => show win0_0.index t (1 : Fin 2) * 1024 + 1 * d.val = d.val; rw [e1]; omega

/-- Row `r` of the code block at point `t` is row `r` of code tile `t / 4`. -/
theorem eblk_apply (c : Dev nD) (t : Fin cfg0.N) (r d : Fin 1024) :
    (iblk m c 1 t : Vec Ideal S1024x1024 .f32) (ix2 r d) = eA m c (ix2 (tile (pOf t.val, r)) d) := by
  have hN : t.val < 16 := lt_of_lt_of_eq t.isLt (show cfg0.N = 16 from N_0)
  obtain ⟨-, -, e0, e1, -⟩ := idx_facts t
  unfold iblk eA
  rw [View.read_apply]
  show m ((c : Thread nD τ).loc main_arg1) _ = m ((c : Thread nD τ).loc main_arg1) _
  congr 1
  funext a
  apply Fin.ext
  match a with
  | ⟨0, _⟩ => show win0_1.index t (0 : Fin 2) * 1024 + 1 * r.val = ((t.val / 4) % 4) * 1024 + r.val; rw [e0]; omega
  | ⟨1, _⟩ => show win0_1.index t (1 : Fin 2) * 1024 + 1 * d.val = d.val; rw [e1]; omega

/-- The least distance-entry of code `c'` of code tile `p` over data tile `q`. -/
def tileInf (z e : Arr) (q p : Fin 4) (c' : Fin 1024) : EReal :=
  Finset.univ.inf fun r : Fin 1024 => sqn z (tile (q, r)) - two * dotp z e (tile (q, r)) (tile (p, c'))

/-- One point lowers the carried row, per code, to that least entry. -/
theorem point_apply (c : Dev nD) (t : Fin cfg0.N) (acc : FVec Ideal S1x1024 .f32) (c' : Fin 1024) :
    k0_pay2 (F := Ideal) (iblk m c 0 t) (iblk m c 1 t) acc (ix2 (0 : Fin 1) c')
      = min (acc (ix2 (0 : Fin 1) c')) (tileInf (zA m c) (eA m c) (qOf t.val) (pOf t.val) c') := by
  refine (carry_apply (iblk m c 0 t) (iblk m c 1 t) acc c').trans ?_
  refine congrArg (min (acc (ix2 (0 : Fin 1) c'))) ?_
  unfold tileInf sqn dotp
  refine congrArg (Finset.inf Finset.univ) (funext fun r => ?_)
  simp only [zblk_apply, eblk_apply]

/-! ## What the carried row and the output block hold after each point -/

theorem scr_first (c : Dev nD) (t : Fin cfg0.N) (h0 : t.val % 4 = 0) :
    (outsAt0 m c t.val t.isLt).2 = k0_pay2 (iblk m c 0 t) (iblk m c 1 t) (k0_pay1 (F := Ideal)) :=
  scr_reset m c t h0 (by omega)

theorem scr_step (c : Dev nD) (t : Fin cfg0.N) (h0 : ¬t.val % 4 = 0) :
    (outsAt0 m c t.val t.isLt).2 = k0_pay2 (iblk m c 0 t) (iblk m c 1 t)
      (outsAt0 m c (t.val - 1) (Nat.lt_of_le_of_lt (Nat.sub_le _ _) t.isLt)).2 := by
  by_cases h1 : t.val % 4 = 3
  · exact scr_step_C m c t h0 h1
  · exact scr_step_B m c t h0 h1

/-- At the last point of a sweep the output block is the lane sum of the carried row just stored. -/
theorem out_last (c : Dev nD) (t : Fin cfg0.N) (h1 : t.val % 4 = 3) :
    (outsAt0 m c t.val t.isLt).1 = k0_pay3 (F := Ideal) (outsAt0 m c t.val t.isLt).2 :=
  (out_last_C m c t (by omega) h1).trans (congrArg k0_pay3 (scr_step_C m c t (by omega) h1).symm)

/-- The carried row after point `n` (anything outside the grid). -/
def carriedAt (c : Dev nD) (n : ℕ) : FVec Ideal S1x1024 .f32 :=
  if h : n < cfg0.N then (outsAt0 m c n h).2 else k0_pay1 (F := Ideal)

theorem carriedAt_reset (c : Dev nD) (n : ℕ) (hn : n < cfg0.N) (h0 : n % 4 = 0) (c' : Fin 1024) :
    carriedAt m c n (ix2 (0 : Fin 1) c') = min ⊤ (tileInf (zA m c) (eA m c) (qOf n) (pOf n) c') := by
  unfold carriedAt
  rw [dif_pos hn, scr_first m c ⟨n, hn⟩ h0]
  refine (point_apply m c ⟨n, hn⟩ (k0_pay1 (F := Ideal)) c').trans ?_
  rw [reset_apply]

theorem carriedAt_step (c : Dev nD) (n : ℕ) (hn : n + 1 < cfg0.N) (h0 : ¬(n + 1) % 4 = 0) (c' : Fin 1024) :
    carriedAt m c (n + 1) (ix2 (0 : Fin 1) c')
      = min (carriedAt m c n (ix2 (0 : Fin 1) c')) (tileInf (zA m c) (eA m c) (qOf (n + 1)) (pOf (n + 1)) c') := by
  unfold carriedAt
  rw [dif_pos hn, dif_pos (Nat.lt_of_succ_lt hn), scr_step m c ⟨n + 1, hn⟩ h0]
  exact point_apply m c ⟨n + 1, hn⟩ _ c'

/-- After the last point of code tile `p`'s sweep: the four data tiles' least entries folded from `⊤`. -/
theorem sweep_min (c : Dev nD) (p : Fin 4) (c' : Fin 1024) :
    carriedAt m c (4 * p.val + 3) (ix2 (0 : Fin 1) c')
      = min (min (min (min ⊤ (tileInf (zA m c) (eA m c) 0 p c')) (tileInf (zA m c) (eA m c) 1 p c'))
          (tileInf (zA m c) (eA m c) 2 p c')) (tileInf (zA m c) (eA m c) 3 p c') := by
  have hp := p.isLt
  have hN : cfg0.N = 16 := N_0
  have s3 : carriedAt m c (4 * p.val + 3) (ix2 (0 : Fin 1) c')
      = min (carriedAt m c (4 * p.val + 2) (ix2 (0 : Fin 1) c')) (tileInf (zA m c) (eA m c) (qOf (4 * p.val + 3)) (pOf (4 * p.val + 3)) c') :=
    carriedAt_step m c (4 * p.val + 2) (by omega) (by omega) c'
  have s2 : carriedAt m c (4 * p.val + 2) (ix2 (0 : Fin 1) c')
      = min (carriedAt m c (4 * p.val + 1) (ix2 (0 : Fin 1) c')) (tileInf (zA m c) (eA m c) (qOf (4 * p.val + 2)) (pOf (4 * p.val + 2)) c') :=
    carriedAt_step m c (4 * p.val + 1) (by omega) (by omega) c'
  have s1 : carriedAt m c (4 * p.val + 1) (ix2 (0 : Fin 1) c')
      = min (carriedAt m c (4 * p.val) (ix2 (0 : Fin 1) c')) (tileInf (zA m c) (eA m c) (qOf (4 * p.val + 1)) (pOf (4 * p.val + 1)) c') :=
    carriedAt_step m c (4 * p.val) (by omega) (by omega) c'
  have s0 := carriedAt_reset m c (4 * p.val) (by omega) (by omega) c'
  have q0 : qOf (4 * p.val) = 0 := Fin.ext (by show (4 * p.val) % 4 = 0; omega)
  have q1 : qOf (4 * p.val + 1) = 1 := Fin.ext (by show (4 * p.val + 1) % 4 = 1; omega)
  have q2 : qOf (4 * p.val + 2) = 2 := Fin.ext (by show (4 * p.val + 2) % 4 = 2; omega)
  have q3 : qOf (4 * p.val + 3) = 3 := Fin.ext (by show (4 * p.val + 3) % 4 = 3; omega)
  have p0 : pOf (4 * p.val) = p := Fin.ext (by show ((4 * p.val) / 4) % 4 = p.val; omega)
  have p1 : pOf (4 * p.val + 1) = p := Fin.ext (by show ((4 * p.val + 1) / 4) % 4 = p.val; omega)
  have p2 : pOf (4 * p.val + 2) = p := Fin.ext (by show ((4 * p.val + 2) / 4) % 4 = p.val; omega)
  have p3 : pOf (4 * p.val + 3) = p := Fin.ext (by show ((4 * p.val + 3) / 4) % 4 = p.val; omega)
  rw [s3, s2, s1, s0, q0, q1, q2, q3, p0, p1, p2, p3]

/-- The output block of the last point of a sweep: every lane holds the sum over the tile's codes. -/
theorem out_block (c : Dev nD) (n : ℕ) (hn : n < cfg0.N) (h3 : n % 4 = 3) (l : Fin 128) :
    (outsAt0 m c n hn).1 (ix3 (0 : Fin 1) (0 : Fin 1) l)
      = ∑ c' : Fin 1024, min (min (min (min ⊤ (tileInf (zA m c) (eA m c) 0 (pOf n) c')) (tileInf (zA m c) (eA m c) 1 (pOf n) c'))
          (tileInf (zA m c) (eA m c) 2 (pOf n) c')) (tileInf (zA m c) (eA m c) 3 (pOf n) c') := by
  have hN : cfg0.N = 16 := N_0
  rw [out_last m c ⟨n, hn⟩ h3]
  refine (out_apply _ l).trans (Finset.sum_congr rfl fun c' _ => ?_)
  have e1 : (outsAt0 m c n hn).2 = carriedAt m c n := by unfold carriedAt; rw [dif_pos hn]
  have e2 : n = 4 * (pOf n).val + 3 := by show n = 4 * ((n / 4) % 4) + 3; omega
  show (outsAt0 m c n hn).2 (ix2 (0 : Fin 1) c') = _
  rw [e1]
  exact (congrArg (fun k => carriedAt m c k (ix2 (0 : Fin 1) c')) e2).trans (sweep_min m c (pOf n) c')

end Cert.KernelIdeal.Sweep

end
-- ==== Proof.Result.lean ====
/-
  The idealized kernel's run, read: its scalar result as a function of the two argument arrays.

  The region leaves a 4 × 1 × 128 array whose block `p` holds, in every lane, the sum over the 1024 codes of tile `p` of
  the least distance-entry over all four data tiles (the last point of each sweep writes its block back, and the four
  blocks tile the array).  The lines after the region take lane 0 of each block, sum the four, divide by 4096, and add
  the mean over the codes of their squared norms.
-/
import proofs.«167974_j88441966559691_2_alg».proof.Proof.Sweep
import Idealize.ShloMosaic.Lib.StableHlo.Run

noncomputable section

namespace Cert.KernelIdeal.Result

open Cert.KernelIdeal Cert.KernelIdeal.Gen Cert.KernelIdeal.Sweep Cert.Dist
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The sum, over the codes of tile `p`, of the four data tiles' least entries folded from `⊤`. -/
def tileSum (z e : Arr) (p : Fin 4) : EReal :=
  ∑ c' : Fin 1024, min (min (min (min ⊤ (tileInf z e 0 p c')) (tileInf z e 1 p c')) (tileInf z e 2 p c')) (tileInf z e 3 p c')

/-- What the region's result array ends holding: block `p` at `tileSum p` in every lane. -/
def regionOut (c : Dev nD) : Buf (Elt Ideal) ((c : Thread nD τ).loc main_v0) :=
  fun i => tileSum (zA m c) (eA m c) ⟨(i 0).val % 4, Nat.mod_lt _ (by decide)⟩

/-- The write-back at the last point of a sweep writes that block. -/
theorem flushed_eq (c : Dev nD) (t : Fin cfg0.N) (hf : (cfg0.win 2).flush t = true) :
    (dats m 0 c).flushed 2 t = ((cfg0.win 2).blk t).view.read (Elt Ideal) (regionOut m c) := by
  have hN : t.val < 16 := lt_of_lt_of_eq t.isLt (show cfg0.N = 16 from N_0)
  have h3 : t.val % 4 = 3 := (flush0_2 t).mp hf
  obtain ⟨-, -, -, -, e0, e1, e2⟩ := idx_facts t
  show (cfg0.win 2).cut (grid0.coords t) ((dats m 0 c).after 2 t) = _
  rw [after0_2]
  funext j
  obtain ⟨a, b, l, rfl⟩ : ∃ (a : Fin 1) (b : Fin 1) (l : Fin 128), j = ix3 a b l := ⟨j 0, j 1, j 2, eq_ix3 j⟩
  obtain rfl : a = 0 := Subsingleton.elim _ _
  obtain rfl : b = 0 := Subsingleton.elim _ _
  rw [View.read_apply]
  show (outsAt0 m c t.val t.isLt).1 (ix3 (0 : Fin 1) (0 : Fin 1) l) = regionOut m c (((cfg0.win 2).blk t).view.emb (ix3 (0 : Fin 1) (0 : Fin 1) l))
  rw [out_block m c t.val t.isLt h3 l]
  unfold regionOut tileSum
  have hp : pOf t.val = ⟨((((cfg0.win 2).blk t).view.emb (ix3 (0 : Fin 1) (0 : Fin 1) l)) 0).val % 4, Nat.mod_lt _ (by decide)⟩ :=
    Fin.ext (by
      show (t.val / 4) % 4 = (win0_2.index t (0 : Fin 3) * 1 + 1 * 0) % 4
      rw [e0]; omega)
  rw [hp]

/-- Every index of the result array is in the block some sweep's last point writes back. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 128 := (i 2).isLt
  have hN : cfg0.N = 16 := N_0
  let t : Fin cfg0.N := ⟨4 * (i 0).val + 3, by omega⟩
  obtain ⟨-, -, -, -, e0, e1, e2⟩ := idx_facts t
  refine ⟨t, (flush0_2 t).mpr (by show (4 * (i 0).val + 3) % 4 = 3; omega), ?_⟩
  show i ∈ ((View.whole main_v0).slice (win0_2.rect t)).set
  rw [View.set_slice_whole, Rect.mem_set_unit]
  intro a
  have ht : t.val = 4 * (i 0).val + 3 := rfl
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 1 ≤ (i 1).val ∧ (i 1).val < win0_2.index t (1 : Fin 3) * 1 + 1
    rw [e1]; omega
  | ⟨2, _⟩ =>
    show win0_2.index t (2 : Fin 3) * 128 ≤ (i 2).val ∧ (i 2).val < win0_2.index t (2 : Fin 3) * 128 + 128
    rw [e2]; omega

/-- So the region's result array ends holding `regionOut`. -/
theorem final_out (c : Dev nD) : (dats m 0 c).arrAt 2 cfg0.N = regionOut m c :=
  (dats m 0 c).arrAt_eq_of_cover 2 (regionOut m c) (fun t hf => flushed_eq m c t hf) (cover c)

/-- The lines after the region, as one function of the region's result array and the code array. -/
def tailOf (o : S4x1x128.Idx → Ideal .f32) (e : S4096x1024.Idx → Ideal .f32) : S_.Idx → Ideal .f32 :=
  addf
    (Host.divf (F := Ideal)
      (Host.reduceAdd (F := Ideal) (shapeCast S4 (extractStridedSlice S4x1x1 ![0, 0, 0] o slices_S4x1x128_S4x1x1_0_0_0) shapeCasts_S4x1x1_S4)
        (constant (F := Ideal) S_ .f32 0x00000000#32) reducesTo_S4_S_d0 h_S_)
      (constant (F := Ideal) S_ .f32 0x45800000#32))
    (Host.divf (F := Ideal)
      (Host.reduceAdd (F := Ideal)
        (Host.reduceAdd (F := Ideal) (mulf e e) (constant (F := Ideal) S_ .f32 0x00000000#32) reducesTo_S4096x1024_S4096_d1 h_S_)
        (constant (F := Ideal) S_ .f32 0x00000000#32) reducesTo_S4096_S_d0 h_S_)
      (constant (F := Ideal) S_ .f32 0x45800000#32))

/-- The program's result buffer after the run. -/
theorem tail_result (c : Dev nD) :
    Pipeline.afterTail₀ cfgs (dats m) 0 (V0 m) [hostOps1] c main_v9 = tailOf (regionOut m c) (eA m c) := by
  unfold Pipeline.afterTail₀
  show StableHlo.after hostOps1 _ (Proc.devRef .tc main_v9) = _
  after_results
  have w0 : Pipeline.withArrays (cfgs 0).spec c (V0 m c) (fun w => (dats m 0 c).arrAt w (cfgs 0).N) (Proc.devRef .tc main_v0)
      = regionOut m c :=
    (Pipeline.withArrays_arr spec0 launch0.win.arr_inj c _ _ 2).trans (final_out m c)
  have w1 : Pipeline.withArrays (cfgs 0).spec c (V0 m c) (fun w => (dats m 0 c).arrAt w (cfgs 0).N) (Proc.devRef .tc main_arg1)
      = eA m c :=
    (Pipeline.withArrays_arr spec0 launch0.win.arr_inj c _ _ 1).trans
      (((dats m 0 c).arrAt_in 1 rfl _).trans ((A_eq m c 1).trans (V_main_arg1 m c)))
  exact congrArg₂ tailOf w0 w1

/-- The tail read at its one index: the four blocks' lane 0 summed and divided by 4096, plus the mean of the codes'
    squared norms. -/
theorem tailOf_apply (o : S4x1x128.Idx → Ideal .f32) (e : Arr) (i : S_.Idx) :
    tailOf o e i = Ideal.div (∑ p : Fin 4, o (ix3 p (0 : Fin 1) (0 : Fin 128))) (Ideal.ofBits .f32 0x45800000#32)
      + Ideal.div (∑ m : Fin 4096, sqn e m) (Ideal.ofBits .f32 0x45800000#32) := by
  have hA : Host.reduceAdd (F := Ideal) (shapeCast S4 (extractStridedSlice S4x1x1 ![0, 0, 0] o slices_S4x1x128_S4x1x1_0_0_0) shapeCasts_S4x1x1_S4)
      (constant (F := Ideal) S_ .f32 0x00000000#32) reducesTo_S4_S_d0 h_S_ i = ∑ p : Fin 4, o (ix3 p (0 : Fin 1) (0 : Fin 128)) := by
    simp only [Host.reduceAdd, Ideal.hostReduceAdd_def]
    rw [Ideal.hostReduceAdd_total reducesTo_S4_S_d0 (fun b => b.elim0), sum_ix1]
    show Ideal.ofBits .f32 0x00000000#32 + _ = _
    rw [Ideal.ofBits_zero_f32, zero_add]
    refine Finset.sum_congr rfl fun p _ => ?_
    refine (shapeCast_apply _ shapeCasts_S4x1x1_S4 (ix1 p) (ix3 p (0 : Fin 1) (0 : Fin 1)) ?_).trans ?_
    · rw [Shape.rowMajor_val_three, Shape.rowMajor_val_one]
      show (p.val * 1 + 0) * 1 + 0 = p.val
      omega
    · unfold extractStridedSlice
      exact congrArg o (funext fun a => Fin.ext (by
        match a with
        | ⟨0, _⟩ => show 0 + p.val = p.val; omega
        | ⟨1, _⟩ => rfl
        | ⟨2, _⟩ => rfl))
  have hB : Host.reduceAdd (F := Ideal)
      (Host.reduceAdd (F := Ideal) (mulf e e) (constant (F := Ideal) S_ .f32 0x00000000#32) reducesTo_S4096x1024_S4096_d1 h_S_)
      (constant (F := Ideal) S_ .f32 0x00000000#32) reducesTo_S4096_S_d0 h_S_ i = ∑ m : Fin 4096, sqn e m := by
    simp only [Host.reduceAdd, Ideal.hostReduceAdd_def]
    rw [Ideal.hostReduceAdd_total reducesTo_S4096_S_d0 (fun b => b.elim0), sum_ix1]
    show Ideal.ofBits .f32 0x00000000#32 + _ = _
    rw [Ideal.ofBits_zero_f32, zero_add]
    refine Finset.sum_congr rfl fun k _ => ?_
    rw [Ideal.hostReduceAdd_single reducesTo_S4096x1024_S4096_d1 (by decide)]
    show Ideal.ofBits .f32 0x00000000#32 + _ = _
    rw [Ideal.ofBits_zero_f32, zero_add]
    unfold sqn
    refine Finset.sum_congr rfl fun d _ => ?_
    exact congrArg (fun j => e j * e j) (funext fun a => Fin.ext (by fin_cases a <;> rfl))
  show Ideal.div _ (Ideal.ofBits .f32 0x45800000#32) + Ideal.div _ (Ideal.ofBits .f32 0x45800000#32) = _
  exact congrArg₂ (fun x y => Ideal.div x (Ideal.ofBits .f32 0x45800000#32) + Ideal.div y (Ideal.ofBits .f32 0x45800000#32)) hA hB

/-- THE KERNEL'S VALUE: the loss of the two argument arrays. -/
theorem kernel_value (c : Dev nD) : tailOf (regionOut m c) (eA m c) = fun _ => loss (zA m c) (eA m c) := by
  funext i
  rw [tailOf_apply, loss_split]
  refine congrArg (fun s => Ideal.div s (Ideal.ofBits .f32 0x45800000#32) + _) ?_
  have h := sum_tiles_min fun n k => sqn (zA m c) n - two * dotp (zA m c) (eA m c) n k
  refine Eq.trans ?_ h
  refine Finset.sum_congr rfl fun p _ => ?_
  have hp : regionOut m c (ix3 p (0 : Fin 1) (0 : Fin 128)) = tileSum (zA m c) (eA m c) p :=
    congrArg (tileSum (zA m c) (eA m c)) (Fin.ext (by show p.val % 4 = p.val; omega))
  exact hp

theorem mem_rest : main_v9 ∈ Pipeline.restRefs sig (cfgs 0).spec :=
  Pipeline.mem_restRefs_of main_v9 (by decide) (by decide)

/-- The run, read: the result buffer at the loss of the argument arrays, the arguments unchanged. -/
theorem run : θ_run defs (onTc (τ := τ) (main (F := Ideal))) ⟨m, fun _ => 0, ρ⟩ fun r => ∀ c : Dev nD,
      r.2.mem ((c : Thread nD τ).loc main_v9) = (fun _ => loss (zA m c) (eA m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v9 mem_rest).trans ((tail_result m c).trans (kernel_value m c)),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Result

end
-- ==== Proof.lean ====
/-
  The certificate of the nearest-code loss: for data rows `z` and codes `e` (4096 × 1024 each),

      loss z e = ( ∑ₘ minₙ ‖zₙ − eₘ‖² ) / 4096,    ‖zₙ − eₘ‖² expanded as (‖zₙ‖² + ‖eₘ‖²) − 2·⟨zₙ, eₘ⟩.

  The reference computes the expanded distance matrix whole, takes column minima, and averages.  The kernel leaves the
  code's own norm out of the minimum: over a 4 × 4 grid (code tile × data tile, data tile fastest) it keeps per code
  the running minimum of ‖zₙ‖² − 2·⟨zₙ, eₘ⟩ across the four data tiles, sums the 1024 minima of each code tile, and the
  lines after the call add the four sums, divide by 4096 and add the mean of ‖eₘ‖².  Over the extended reals the two
  agree, by three laws none of which needs the inputs finite (Proof/ExtAlgebra.lean): a minimum over a nonempty
  finite set commutes with adding a constant; sums re-associate and re-tile; division by 4096 distributes over `+`.

  The modules: ExtAlgebra (the laws), Spec (the loss as one function of the arrays), RefStages (the reference's result is
  the loss), Pieces (what each store of the body leaves, per control case), Payload (the body's arithmetic at an index),
  Sweep (the carried row across a sweep), Result (the region's result array, the lines after it, the run).
  The three frames are the generated ones; the ideal pass rewrote nothing, so `preserves` is `True`.
-/
import proofs.«167974_j88441966559691_2_alg».proof.Defs
import proofs.«167974_j88441966559691_2_alg».proof.Proof.Gen.Kernel
import proofs.«167974_j88441966559691_2_alg».proof.Proof.Gen.Kernel.Skeleton
import proofs.«167974_j88441966559691_2_alg».proof.Proof.Gen.Kernel.Launch
import proofs.«167974_j88441966559691_2_alg».proof.Proof.Gen.Kernel.Points
import proofs.«167974_j88441966559691_2_alg».proof.Proof.Gen.Kernel.Frame
import proofs.«167974_j88441966559691_2_alg».proof.Proof.Gen.KernelIdeal
import proofs.«167974_j88441966559691_2_alg».proof.Proof.Gen.KernelIdeal.Skeleton
import proofs.«167974_j88441966559691_2_alg».proof.Proof.Gen.KernelIdeal.Launch
import proofs.«167974_j88441966559691_2_alg».proof.Proof.Gen.KernelIdeal.Points
import proofs.«167974_j88441966559691_2_alg».proof.Proof.Gen.KernelIdeal.Frame
import proofs.«167974_j88441966559691_2_alg».proof.Proof.Gen.ReferenceIdeal
import proofs.«167974_j88441966559691_2_alg».proof.Proof.Gen.ReferenceIdeal.Run
import proofs.«167974_j88441966559691_2_alg».proof.Proof.Gen.ReferenceIdeal.Read
import proofs.«167974_j88441966559691_2_alg».proof.Proof.Gen.Pre_finite_inputs
import proofs.«167974_j88441966559691_2_alg».proof.Proof.RefStages
import proofs.«167974_j88441966559691_2_alg».proof.Proof.Result
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with their result buffer at the loss of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.Dist.loss (Cert.KernelIdeal.Sweep.zA m c) (Cert.KernelIdeal.Sweep.eA m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2]
  exact Cert.ReferenceIdeal.Stages.result_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
